-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S192x256 : Shape := ⟨2, ![192, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S192x256 .f32) (main_arg3 : FVec F S256 .f32) (main_arg4 : FVec F S256x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S192x256 .f32 := Host.absf main_arg2
  let main_cst_0 : FVec F S_ .f32 := constant S_ .f32 0x7F800000#32
  let main_v5 : FVec F S192x256 .f32 := broadcastInDim S192x256 ![] bcast_S_S192x256 main_cst_0
  let main_v6 : IVec S192x256 1 := cmpf .olt main_v4 main_v5
  let main_c_1 : IVec S_ 1 := constantI S_ 1 1#1
  let main_v7 : IVec S_ 1 := (fun x v => Host.reduce IntOp.andi x v reducesTo_S192x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S192x256 : Shape := ⟨2, ![192, 256]⟩
abbrev S256 : Shape := ⟨1, ![256]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S3200000 : Shape := ⟨1, ![3200000]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S3200000x65 : Shape := ⟨2, ![3200000, 65]⟩
abbrev S100000x65 : Shape := ⟨2, ![100000, 65]⟩
abbrev S100000x1 : Shape := ⟨2, ![100000, 1]⟩
abbrev S2000x128 : Shape := ⟨2, ![2000, 128]⟩
abbrev S2000x64 : Shape := ⟨2, ![2000, 64]⟩
abbrev S128x256 : Shape := ⟨2, ![128, 256]⟩
abbrev S64x256 : Shape := ⟨2, ![64, 256]⟩
abbrev S2000x256 : Shape := ⟨2, ![2000, 256]⟩
abbrev S1x256 : Shape := ⟨2, ![1, 256]⟩
abbrev S1x128 : Shape := ⟨2, ![1, 128]⟩

abbrev nBuf : Space → Nat
  | .hbm => 41
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S192x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S3200000, .i32⟩
  | .hbm, ⟨11, _⟩ => ⟨S3200000, .i32⟩
  | .hbm, ⟨12, _⟩ => ⟨S100000x64, .f32⟩
  | .hbm, ⟨13, _⟩ => ⟨S100000x64, .bf16⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x64, .bf16⟩
  | .hbm, ⟨23, _⟩ => ⟨S3200000x64, .f32⟩
  | .hbm, ⟨24, _⟩ => ⟨S_, .f32⟩
  | .hbm, ⟨25, _⟩ => ⟨S3200000x1, .f32⟩
  | .hbm, ⟨26, _⟩ => ⟨S3200000x65, .f32⟩
  | .hbm, ⟨27, _⟩ => ⟨S_, .f32⟩
  | .hbm, ⟨28, _⟩ => ⟨S100000x65, .f32⟩
  | .hbm, ⟨29, _⟩ => ⟨S3200000x1, .i32⟩
  | .hbm, ⟨30, _⟩ => ⟨S100000x65, .f32⟩
  | .hbm, ⟨31, _⟩ => ⟨S100000x64, .f32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S192x256, .bf16⟩
  | .hbm, ⟨39, _⟩ => ⟨S256x128, .bf16⟩
  | .hbm, ⟨40, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x64, .f32⟩
  | .local _ .vmem, ⟨3, _⟩ => ⟨S2000x64, .f32⟩
  | .local _ .vmem, ⟨4, _⟩ => ⟨S192x256, .bf16⟩
  | .local _ .vmem, ⟨5, _⟩ => ⟨S256, .f32⟩
  | .local _ .vmem, ⟨6, _⟩ => ⟨S256x128, .bf16⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  slices_S100000x128_S100000x64_0_0 : S100000x128.Slices ![0, 0] S100000x64
  bitsLt_bf16_f32 : FTy.bits .bf16 < FTy.bits .f32
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  concatenates_S3200000x64_S3200000x1_S3200000x65_d1 : Shape.Concatenates [S3200000x64, S3200000x1] S3200000x65 1
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  inb_S2000x128_S2000x128_0_0 : ∀ a, (![0, 0] : Fin 2 → Nat) a + S2000x128.size a ≤ S2000x128.size a
  h_S2000x128 : 0 < S2000x128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S192x256_S128x256_0_0 : ∀ a, (![0, 0] : Fin 2 → Nat) a + S128x256.size a ≤ S192x256.size a
  h_S128x256 : 0 < S128x256.numel
  shapeCasts_S128x256_S128x256 : S128x256.ShapeCasts S128x256
  inb_S192x256_S64x256_128_0 : ∀ a, (![128, 0] : Fin 2 → Nat) a + S64x256.size a ≤ S192x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S100000x64_S3200000x1_S3200000x64_1_0_n_n_0_1_164_wf : GatherDims.WF S100000x64 S3200000x1 S3200000x64 [1] [0] [] [0] [] 1 ![1, 64]
  scatter_S100000x65_S3200000x1_S3200000x65_1_0_0_1_wf : ScatterDims.WF S100000x65 S3200000x1 S3200000x65 [1] [0] [0] 1
  dot_S2000x128_S128x256_S2000x256_1_0_0_1_n_n_wf : DotDims.WF S2000x128 S128x256 S2000x256 [1] [0] [0] [1] [] []
  dot_S2000x64_S64x256_S2000x256_1_0_0_1_n_n_wf : DotDims.WF S2000x64 S64x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x256.size a ≤ S192x256.size a
  hwx0_2 : ∀ i : grid0.Coords, EltTy.bits .bf16 = 32 ∨ (Rect.block (s := S192x256) S192x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x65_S3200000x1_S3200000x65_1_0_0_1 : ScatterDims S100000x65 S3200000x1 S3200000x65 where
  updateWindowDims := [1]
  insertedWindowDims := [0]
  scatterDimsToOperandDims := [0]
  indexVectorDim := 1
  wf := scatter_S100000x65_S3200000x1_S3200000x65_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S192x256 : Shape := ⟨2, ![192, 256]⟩
abbrev S256 : Shape := ⟨1, ![256]⟩
abbrev S256x128 : Shape := ⟨2, ![256, 128]⟩
abbrev S128 : Shape := ⟨1, ![128]⟩
abbrev S100000x64 : Shape := ⟨2, ![100000, 64]⟩
abbrev S1x1600000 : Shape := ⟨2, ![1, 1600000]⟩
abbrev S1600000 : Shape := ⟨1, ![1600000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000 : Shape := ⟨1, ![100000]⟩
abbrev S100000x1 : Shape := ⟨2, ![100000, 1]⟩
abbrev S100000x192 : Shape := ⟨2, ![100000, 192]⟩
abbrev S100000x256 : Shape := ⟨2, ![100000, 256]⟩
abbrev S1x256 : Shape := ⟨2, ![1, 256]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S192x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S100000x64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S3200000, .i32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S3200000, .i32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x64, .f32⟩
  | .hbm, ⟨26, _⟩ => ⟨S_, .f32⟩
  | .hbm, ⟨27, _⟩ => ⟨S100000x64, .f32⟩
  | .hbm, ⟨28, _⟩ => ⟨S3200000x1, .i32⟩
  | .hbm, ⟨29, _⟩ => ⟨S100000x64, .f32⟩
  | .hbm, ⟨30, _⟩ => ⟨S_, .f32⟩
  | .hbm, ⟨31, _⟩ => ⟨S3200000, .f32⟩
  | .hbm, ⟨32, _⟩ => ⟨S_, .f32⟩
  | .hbm, ⟨33, _⟩ => ⟨S100000, .f32⟩
  | .hbm, ⟨34, _⟩ => ⟨S3200000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x192, .f32⟩
  | .hbm, ⟨43, _⟩ => ⟨S100000x256, .f32⟩
  | .hbm, ⟨44, _⟩ => ⟨S1x256, .f32⟩
  | .hbm, ⟨45, _⟩ => ⟨S100000x256, .f32⟩
  | .hbm, ⟨46, _⟩ => ⟨S100000x256, .f32⟩
  | .hbm, ⟨47, _⟩ => ⟨S_, .f32⟩
  | .hbm, ⟨48, _⟩ => ⟨S100000x256, .f32⟩
  | .hbm, ⟨49, _⟩ => ⟨S100000x256, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_cst : Ref sig .tc := ⟨.hbm, 47, rfl⟩
abbrev main_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  slices_S100000x128_S100000x64_0_0 : S100000x128.Slices ![0, 0] S100000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x128_S100000x64_S100000x192_d1 : Shape.Concatenates [S100000x128, S100000x64] S100000x192 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x192_S192x256_S100000x256_1_0_0_1_n_n_wf : DotDims.WF S100000x192 S192x256 S100000x256 [1] [0] [0] [1] [] []
  dot_S100000x256_S256x128_S100000x128_1_0_0_1_n_n_wf : DotDims.WF S100000x256 S256x128 S100000x128 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x192_S192x256_S100000x256_1_0_0_1_n_n : DotDims S100000x192 S192x256 S100000x256 where
  lhsContracting := [1]
  rhsContracting := [0]
  lhsNonContracting := [0]
  rhsNonContracting := [1]
  lhsBatch := []
  rhsBatch := []
  wf := dot_S100000x192_S192x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.MlpSpec.lean ====
/-
  The per-node network, one output entry at a time, over the extended reals.

  A node's row of 128 features `x(p, ·)` and its row of 64 averaged neighbour features `a(p, ·)` are joined into 192
  inputs; the first layer's weights `w1 : [192, 256]` therefore split into the 128 rows that meet `x` and the 64 rows
  (numbers 128 … 191) that meet `a`. Hidden unit `j` of node `p` is
      max( (∑ₖ x(p,k)·w1(k,j) + ∑ₖ a(p,k)·w1(128+k,j)) + b1(j), 0 )
  and output `r` of node `p` is  ∑ⱼ hidden(p,j)·w2(j,r) + b2(r).
  The number of nodes `M` is a parameter: the same formula is read on a block of rows and on the whole array, and an
  entry depends only on its own node's two rows (`outAt_congr`).
-/
import Idealize.ShloMosaic.Lib.ValueIdx
import Idealize.ShloMosaic.PureOps.Ideal.Laws

noncomputable section

namespace Cert.Mlp

open Idealize.ShloMosaic Idealize.ShloMosaic.ValueIdx

/-- Hidden unit `j` of node `p`: the two partial products, the bias, the maximum with the word for zero. -/
def hiddenAt {M : ℕ} (x : (⟨2, ![M, 128]⟩ : Shape).Idx → EReal) (a : (⟨2, ![M, 64]⟩ : Shape).Idx → EReal)
    (w1 : (⟨2, ![192, 256]⟩ : Shape).Idx → EReal) (b1 : (⟨1, ![256]⟩ : Shape).Idx → EReal) (p : Fin M) (j : Fin 256) : EReal :=
  max ((∑ k : Fin 128, x (ix2 p k) * w1 (ix2 (⟨k.val, by have := k.isLt; omega⟩ : Fin 192) j)
      + ∑ k : Fin 64, a (ix2 p k) * w1 (ix2 (⟨128 + k.val, by have := k.isLt; omega⟩ : Fin 192) j)) + b1 (ix1 j))
    (Ideal.ofBits .f32 0x00000000#32)

/-- Output `r` of node `p`. -/
def outAt {M : ℕ} (x : (⟨2, ![M, 128]⟩ : Shape).Idx → EReal) (a : (⟨2, ![M, 64]⟩ : Shape).Idx → EReal)
    (w1 : (⟨2, ![192, 256]⟩ : Shape).Idx → EReal) (b1 : (⟨1, ![256]⟩ : Shape).Idx → EReal)
    (w2 : (⟨2, ![256, 128]⟩ : Shape).Idx → EReal) (b2 : (⟨1, ![128]⟩ : Shape).Idx → EReal) (p : Fin M) (r : Fin 128) : EReal :=
  (∑ j : Fin 256, hiddenAt x a w1 b1 p j * w2 (ix2 j r)) + b2 (ix1 r)

/-- An output entry depends on its node's two rows only: the same rows of two arrays (of any two heights) with the
    same weights give the same entry. -/
theorem outAt_congr {M M' : ℕ} (x : (⟨2, ![M, 128]⟩ : Shape).Idx → EReal) (a : (⟨2, ![M, 64]⟩ : Shape).Idx → EReal)
    (x' : (⟨2, ![M', 128]⟩ : Shape).Idx → EReal) (a' : (⟨2, ![M', 64]⟩ : Shape).Idx → EReal)
    (w1 w1' : (⟨2, ![192, 256]⟩ : Shape).Idx → EReal) (b1 b1' : (⟨1, ![256]⟩ : Shape).Idx → EReal)
    (w2 w2' : (⟨2, ![256, 128]⟩ : Shape).Idx → EReal) (b2 b2' : (⟨1, ![128]⟩ : Shape).Idx → EReal) (p : Fin M) (p' : Fin M') (r : Fin 128)
    (hx : ∀ k, x (ix2 p k) = x' (ix2 p' k)) (ha : ∀ k, a (ix2 p k) = a' (ix2 p' k))
    (hw1 : w1 = w1') (hb1 : b1 = b1') (hw2 : w2 = w2') (hb2 : b2 = b2') :
    outAt x a w1 b1 w2 b2 p r = outAt x' a' w1' b1' w2' b2' p' r := by
  subst hw1 hb1 hw2 hb2
  unfold outAt hiddenAt
  simp only [hx, ha]

end Cert.Mlp

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.KernelBody.lean ====
/-
  One grid point of the kernel, read at an entry.

  At a grid point the body holds a block of 2000 nodes: their rows of features `x0 : [2000, 128]`, their rows of
  averaged neighbour features `x1 : [2000, 64]`, and the whole weight and bias arrays. It reads rows 0 … 127 and rows
  128 … 191 of the first layer's weights as two pieces, multiplies the node rows into the first piece and the neighbour
  rows into the second, adds the two products and the bias row, takes the maximum with zero, multiplies by the second
  layer's weights and adds its bias row. A change of float format is the identity on the extended reals and a product
  into a zero accumulator is the plain sum, so entry `(p, r)` of what the body stores is the network's output `r` for
  the block's node `p` (`Cert.Mlp.outAt` at height 2000).
-/
import proofs.«164900_j84378927497574_2_alg».proof.Proof.Gen.KernelIdeal.Frame
import proofs.«164900_j84378927497574_2_alg».proof.Proof.MlpSpec
import proofs.«164900_j84378927497574_2_alg».proof.Proof.LibPlainDot
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

theorem hz2 : (![0, 0] : Fin 2 → Nat) = fun _ => 0 := funext fun a => by fin_cases a <;> rfl
theorem hz1 : (![0] : Fin 1 → Nat) = fun _ => 0 := funext fun a => by fin_cases a; rfl

/-- The body's arithmetic at entry `(p, r)`, over the pieces it loaded: `v5` and `v7` are the two pieces of the first
    layer's weights. -/
theorem pay_apply (v0 : FVec Ideal S2000x128 .f32) (v2 : FVec Ideal S2000x64 .f32) (v5 : FVec Ideal S128x256 .bf16)
    (v7 : FVec Ideal S64x256 .bf16) (v12 : FVec Ideal S256 .f32) (v19 : FVec Ideal S256x128 .bf16) (v22 : FVec Ideal S128 .f32)
    (p : Fin 2000) (r : Fin 128) :
    k0_pay1 (F := Ideal) v0 v2 v5 v7 v12 v19 v22 (ix2 p r)
      = (∑ j : Fin 256, max ((∑ k : Fin 128, v0 (ix2 p k) * v5 (ix2 k j) + ∑ k : Fin 64, v2 (ix2 p k) * v7 (ix2 k j)) + v12 (ix1 j))
            (Ideal.ofBits .f32 0x00000000#32) * v19 (ix2 j r)) + v22 (ix1 r) := by
  unfold k0_pay1
  simp only [shapeCast_self]
  refine (congrArg₂ (· + ·) (matmul_plain_zero_apply _ rfl none _ _ p r)
    ((ValueIdx.broadcastTo_1b_ab_apply _ _ p r).trans (ValueIdx.shapeCast_a_1a_apply v22 _ 0 r))).trans ?_
  refine congrArg (· + v22 (ix1 r)) (Finset.sum_congr rfl fun j _ => congrArg (· * v19 (ix2 j r)) ?_)
  exact congrArg₂ max (congrArg₂ (· + ·) (congrArg₂ (· + ·) (matmul_plain_zero_apply _ rfl none _ _ p j)
      (matmul_plain_zero_apply _ rfl none _ _ p j))
    ((ValueIdx.broadcastTo_1b_ab_apply _ _ p j).trans (ValueIdx.shapeCast_a_1a_apply v12 _ 0 j))) rfl

/-- Rows 0 … 127 of the first layer's weights, as the body loads them. -/
theorem ld_top (x2 : Vec Ideal S192x256 .bf16) (k : Fin 128) (j : Fin 256) :
    View.ld (Val := Elt Ideal) x2 r0_2 (ix2 k j) = x2 (ix2 (⟨k.val, by have := k.isLt; omega⟩ : Fin 192) j) :=
  congrArg x2 (funext fun a => Fin.ext (match a with
    | ⟨0, _⟩ => by show 0 + 1 * k.val = k.val; omega
    | ⟨1, _⟩ => by show 0 + 1 * j.val = j.val; omega))

/-- Rows 128 … 191 of the first layer's weights, as the body loads them. -/
theorem ld_bottom (x2 : Vec Ideal S192x256 .bf16) (k : Fin 64) (j : Fin 256) :
    View.ld (Val := Elt Ideal) x2 r0_3 (ix2 k j) = x2 (ix2 (⟨128 + k.val, by have := k.isLt; omega⟩ : Fin 192) j) :=
  congrArg x2 (funext fun a => Fin.ext (match a with
    | ⟨0, _⟩ => by show 128 + 1 * k.val = 128 + k.val; omega
    | ⟨1, _⟩ => by show 0 + 1 * j.val = j.val; omega))

/-- WHAT THE BODY LEAVES in the output block, at entry `(p, r)`: the network's output `r` of the block's node `p`. -/
theorem out_apply (x0 : FVec Ideal S2000x128 .f32) (x1 : FVec Ideal S2000x64 .f32) (x2 : FVec Ideal S192x256 .bf16)
    (x3 : FVec Ideal S256 .f32) (x4 : FVec Ideal S256x128 .bf16) (x5 : FVec Ideal S128 .f32) (p : Fin 2000) (r : Fin 128) :
    out0_6 (F := Ideal) x0 x1 x2 x3 x4 x5 (ix2 p r) = Cert.Mlp.outAt x0 x1 x2 x3 x4 x5 p r := by
  unfold out0_6
  rw [View.canon_unit_zero hz2]
  simp only [View.ld_unit_zero (S := S2000x128) hz2, View.ld_unit_zero (S := S2000x64) hz2,
    View.ld_unit_zero (S := S256x128) hz2, View.ld_unit_zero (S := S256) hz1, View.ld_unit_zero (S := S128) hz1]
  refine (pay_apply _ _ _ _ _ _ _ p r).trans ?_
  unfold Cert.Mlp.outAt Cert.Mlp.hiddenAt
  refine congrArg (· + x5 (ix1 r)) (Finset.sum_congr rfl fun j _ => congrArg (· * x4 (ix2 j r)) ?_)
  exact congrArg₂ max (congrArg (· + x3 (ix1 j)) (congrArg₂ (· + ·)
    (Finset.sum_congr rfl fun k _ => congrArg (x0 (ix2 p k) * ·) (ld_top x2 k j))
    (Finset.sum_congr rfl fun k _ => congrArg (x1 (ix2 p k) * ·) (ld_bottom x2 k j)))) rfl

end Cert.KernelIdeal.Body

end
-- ==== Proof.AggDef.lean ====
/-
  The kernel program's aggregate, as one function of the features and the edge list.

  Before its grid the kernel program computes, on the host, each node's averaged neighbour features: it reads the two rows
  of the edge list, joins them both ways round into the target row numbers `dstCol` and the source row numbers `srcCol`
  (a negative source number moved up by the number of nodes), looks up the first 64 features of every source node, appends
  a column of ones, scatter-adds the joined rows `[3200000, 65]` onto the target nodes, and divides the 64 summed features
  by the 65th column (the count of edges onto the node) floored at one. These definitions spell that chain once, in the
  kernel program's own operations.
-/
import proofs.«164900_j84378927497574_2_alg».proof.Proof.Gen.KernelIdeal
import Idealize.ShloMosaic.PureOps.Ideal

noncomputable section

namespace Cert.KernelIdeal.HostAgg

open Cert.KernelIdeal Cert.KernelIdeal.Facts₀ Idealize.ShloMosaic

/-- Row 0 of the edge list as a vector. -/
def row0 (x1 : IVec S2x1600000 32) : IVec S1600000 32 :=
  shapeCast _ (extractStridedSlice S1x1600000 ![0, 0] x1 slices_S2x1600000_S1x1600000_0_0) shapeCasts_S1x1600000_S1600000

/-- Row 1 of the edge list as a vector. -/
def row1 (x1 : IVec S2x1600000 32) : IVec S1600000 32 :=
  shapeCast _ (extractStridedSlice S1x1600000 ![1, 0] x1 slices_S2x1600000_S1x1600000_1_0) shapeCasts_S1x1600000_S1600000

/-- The target row number of every symmetric edge, as a column: row 0 then row 1. -/
def dstCol (x1 : IVec S2x1600000 32) : IVec S3200000x1 32 :=
  broadcastInDim S3200000x1 ![0] bcast_S3200000_S3200000x1_0
    (concatenate S3200000 0 [⟨S1600000, row0 x1⟩, ⟨S1600000, row1 x1⟩] concatenates_S1600000_S1600000_S3200000_d0)

/-- The source row number of every symmetric edge: row 1 then row 0. -/
def srcRaw (x1 : IVec S2x1600000 32) : IVec S3200000 32 :=
  concatenate S3200000 0 [⟨S1600000, row1 x1⟩, ⟨S1600000, row0 x1⟩] concatenates_S1600000_S1600000_S3200000_d0

/-- The source row numbers as the lookup uses them, as a column: a negative number moved up by the number of nodes. -/
def srcCol (x1 : IVec S2x1600000 32) : IVec S3200000x1 32 :=
  broadcastInDim S3200000x1 ![0] bcast_S3200000_S3200000x1_0
    (select (cmpi .slt (srcRaw x1) (broadcastInDim S3200000 ![] bcast_S_S3200000 (constantI S_ 32 0#32)))
      (addi (srcRaw x1) (broadcastInDim S3200000 ![] bcast_S_S3200000 (constantI S_ 32 100000#32))) (srcRaw x1))

/-- The first 64 features of every edge's source node. -/
def gathered (x0 : FVec Ideal S100000x128 .f32) (x1 : IVec S2x1600000 32) :
    FVec Ideal S3200000x64 .f32 :=
  extf .f32 (Host.gather gather_S100000x64_S3200000x1_S3200000x64_1_0_n_n_0_1_164
    (truncf .bf16 (extractStridedSlice S100000x64 ![0, 0] x0 slices_S100000x128_S100000x64_0_0) bitsLt_bf16_f32) (srcCol x1)) bitsLt_bf16_f32

/-- The column of ones appended to them. -/
def onesCol : FVec Ideal S3200000x1 .f32 :=
  broadcastInDim S3200000x1 ![] bcast_S_S3200000x1 (constant (F := Ideal) S_ .f32 0x3F800000#32)

/-- The zero array the scatter accumulates into. -/
def zeros65 : FVec Ideal S100000x65 .f32 :=
  broadcastInDim S100000x65 ![] bcast_S_S100000x65 (constant (F := Ideal) S_ .f32 0x00000000#32)

/-- Per node: the 64 summed source features and, in column 64, the number of edges onto the node. -/
def scat (x0 : FVec Ideal S100000x128 .f32) (x1 : IVec S2x1600000 32) :
    FVec Ideal S100000x65 .f32 :=
  Host.scatterAdd (F := Ideal) scatter_S100000x65_S3200000x1_S3200000x65_1_0_0_1 zeros65 (dstCol x1)
    (concatenate S3200000x65 1 [⟨S3200000x64, gathered x0 x1⟩, ⟨S3200000x1, onesCol⟩] concatenates_S3200000x64_S3200000x1_S3200000x65_d1)

/-- The count column floored at one and spread over the 64 feature columns. -/
def degSpread (x0 : FVec Ideal S100000x128 .f32) (x1 : IVec S2x1600000 32) :
    FVec Ideal S100000x64 .f32 :=
  broadcastInDim S100000x64 ![0, 1] bcast_S100000x1_S100000x64_0_1
    (maximumf (F := Ideal) (extractStridedSlice S100000x1 ![0, 64] (scat x0 x1) slices_S100000x65_S100000x1_0_64)
      (broadcastInDim S100000x1 ![] bcast_S_S100000x1 (constant (F := Ideal) S_ .f32 0x3F800000#32)))

/-- THE AGGREGATE the kernel's grid reads: summed source features over the floored count. -/
def aggK (x0 : FVec Ideal S100000x128 .f32) (x1 : IVec S2x1600000 32) :
    FVec Ideal S100000x64 .f32 :=
  Host.divf (F := Ideal) (extractStridedSlice S100000x64 ![0, 0] (scat x0 x1) slices_S100000x65_S100000x64_0_0) (degSpread x0 x1)

end Cert.KernelIdeal.HostAgg

end
-- ==== Proof.KernelHost.lean ====
/-
  What the kernel's grid finds in the three arrays the host computed for it.

  The two weight arrays reach the grid through a change of float format only, which is the identity on the extended
  reals, so the grid finds the weights as launched. The aggregate is the host chain of `HostAgg.aggK` applied to the
  features and the edge list as launched.
-/
import proofs.«164900_j84378927497574_2_alg».proof.Proof.Gen.KernelIdeal.Frame
import proofs.«164900_j84378927497574_2_alg».proof.Proof.AggDef
import Idealize.ShloMosaic.Lib.StableHlo.Run

noncomputable section

namespace Cert.KernelIdeal.HostAgg

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The first layer's weights, as the grid finds them, are the weights as launched. -/
theorem V_w1 (c : Dev nD) :
    (Gen.V (F := Ideal) m c main_v27 : S192x256.Idx → EReal) = m ((c : Thread nD τ).loc main_arg2) := by
  dsimp only [Gen.V, Gen.hostOps0]
  after_results
  rfl

/-- The second layer's weights, as the grid finds them, are the weights as launched. -/
theorem V_w2 (c : Dev nD) :
    (Gen.V (F := Ideal) m c main_v28 : S256x128.Idx → EReal) = m ((c : Thread nD τ).loc main_arg4) := by
  dsimp only [Gen.V, Gen.hostOps0]
  after_results
  rfl

set_option maxHeartbeats 2000000 in
/-- The aggregate, as the grid finds it, is the host chain of the features and the edge list as launched. -/
theorem V_agg (c : Dev nD) :
    (Gen.V (F := Ideal) m c main_v26 : S100000x64.Idx → EReal)
      = aggK (m ((c : Thread nD τ).loc main_arg0)) (m ((c : Thread nD τ).loc main_arg1)) := by
  dsimp only [Gen.V, Gen.hostOps0]
  after_results_simp <;> rfl

end Cert.KernelIdeal.HostAgg

end
-- ==== Proof.KernelValue.lean ====
/-
  From the kernel's blocks to its result array.

  The grid has 50 points; point `t` holds rows `2000·t … 2000·t + 1999` of the features and of the aggregate, the whole
  weight and bias arrays, and writes back rows `2000·t … 2000·t + 1999` of the result. What it writes at block entry
  `(p, r)` is the network's output `r` of the block's node `p` (KernelBody), and that node is node `2000·t + p` of the
  whole arrays: an output entry depends on its own node's rows only, so the block is the restriction of ONE whole-array
  function `G` — every node's output from its own feature row and aggregate row. The 50 blocks tile the 100000 rows, so
  after the run the result array is `G` of the arrays as the grid found them: the features and biases as launched, the
  weights as launched (their change of format is the identity), the aggregate the host chain's.
-/
import proofs.«164900_j84378927497574_2_alg».proof.Proof.Gen.KernelIdeal.Value
import proofs.«164900_j84378927497574_2_alg».proof.Proof.KernelBody
import proofs.«164900_j84378927497574_2_alg».proof.Proof.KernelHost

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every node's outputs from its own rows: the result array as one function of the six arrays. -/
def G (x : FVec Ideal S100000x128 .f32) (a : FVec Ideal S100000x64 .f32) (w1 : FVec Ideal S192x256 .f32)
    (b1 : FVec Ideal S256 .f32) (w2 : FVec Ideal S256x128 .f32) (b2 : FVec Ideal S128 .f32) : S100000x128.Idx → EReal :=
  fun i => Cert.Mlp.outAt x a w1 b1 w2 b2 (i 0) (i 1)

/-- The printed index maps over the 50 points: the two row-blocked inputs move with the output's block of rows, every
    other block index is zero, and the output's block of rows is one of the 50. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (1 : Fin 2) = 0 ∧ win0_6.index t (0 : Fin 2) ≤ 49 :=
  (by decide +kernel : ∀ t : Fin grid0.N, _)

/-- Every block of rows is some point's. -/
theorem idx_onto : ∀ q : Fin 50, ∃ t : Fin cfg0.N, win0_6.index t = ![q.val, 0] :=
  (by decide +kernel : ∀ q : Fin 50, ∃ t : Fin grid0.N, win0_6.index t = ![q.val, 0])

/-- The node of the whole arrays that is node `p` of point `t`'s block. -/
def rowOf (t : Fin cfg0.N) (p : Fin 2000) : Fin 100000 :=
  ⟨win0_6.index t (0 : Fin 2) * 2000 + p.val, by
    have h := (idx_facts t).2.2.2.2.2.2.2.2.2.2.2
    have := p.isLt
    omega⟩

/-- Entry `(p, r)` of the output block at point `t` sits at `(rowOf t p, r)` of the result array. -/
theorem emb_out (t : Fin cfg0.N) (p : Fin 2000) (r : Fin 128) :
    ((cfg0.win 6).blk t).view.emb (ix2 p r) = ix2 (rowOf t p) r := by
  obtain ⟨-, -, -, -, -, -, -, -, -, -, e1, -⟩ := idx_facts t
  funext a; apply Fin.ext
  match a with
  | ⟨0, _⟩ => show win0_6.index t (0 : Fin 2) * 2000 + 1 * p.val = win0_6.index t (0 : Fin 2) * 2000 + p.val; omega
  | ⟨1, _⟩ => show win0_6.index t (1 : Fin 2) * 128 + 1 * r.val = r.val; omega

/-- Through the feature window's block at point `t`, any array `[100000, 128]` reads the rows of the block's nodes. -/
theorem blk_x (A : S100000x128.Idx → EReal) (t : Fin cfg0.N) (p : Fin 2000) (k : Fin 128) :
    ((cfg0.win 0).blk t).view.read (Elt Ideal) A (ix2 p k) = A (ix2 (rowOf t p) k) := by
  obtain ⟨e0, e1, -⟩ := idx_facts t
  show A (((cfg0.win 0).blk t).view.emb (ix2 p k)) = _
  refine congrArg A (funext fun a => Fin.ext ?_)
  match a with
  | ⟨0, _⟩ => show win0_0.index t (0 : Fin 2) * 2000 + 1 * p.val = win0_6.index t (0 : Fin 2) * 2000 + p.val; omega
  | ⟨1, _⟩ => show win0_0.index t (1 : Fin 2) * 128 + 1 * k.val = k.val; omega

/-- Through the aggregate window's block at point `t`, any array `[100000, 64]` reads the rows of the block's nodes. -/
theorem blk_a (A : S100000x64.Idx → EReal) (t : Fin cfg0.N) (p : Fin 2000) (k : Fin 64) :
    ((cfg0.win 1).blk t).view.read (Elt Ideal) A (ix2 p k) = A (ix2 (rowOf t p) k) := by
  obtain ⟨-, -, e0, e1, -⟩ := idx_facts t
  show A (((cfg0.win 1).blk t).view.emb (ix2 p k)) = _
  refine congrArg A (funext fun a => Fin.ext ?_)
  match a with
  | ⟨0, _⟩ => show win0_1.index t (0 : Fin 2) * 2000 + 1 * p.val = win0_6.index t (0 : Fin 2) * 2000 + p.val; omega
  | ⟨1, _⟩ => show win0_1.index t (1 : Fin 2) * 64 + 1 * k.val = k.val; omega

/-- The first layer's weight window stages its whole array at every point. -/
theorem blk_w1 (A : S192x256.Idx → EReal) (t : Fin cfg0.N) : ((cfg0.win 2).blk t).view.read (Elt Ideal) A = A := by
  obtain ⟨-, -, -, -, e0, e1, -⟩ := idx_facts t
  funext (y : S192x256.Idx)
  show A (((cfg0.win 2).blk t).view.emb y) = A y
  refine congrArg A (funext fun a => Fin.ext ?_)
  match a with
  | ⟨0, _⟩ => show win0_2.index t (0 : Fin 2) * 192 + 1 * (y 0).val = (y 0).val; omega
  | ⟨1, _⟩ => show win0_2.index t (1 : Fin 2) * 256 + 1 * (y 1).val = (y 1).val; omega

/-- The first layer's bias window stages its whole array at every point. -/
theorem blk_b1 (A : S256.Idx → EReal) (t : Fin cfg0.N) : ((cfg0.win 3).blk t).view.read (Elt Ideal) A = A := by
  obtain ⟨-, -, -, -, -, -, e0, -⟩ := idx_facts t
  funext (y : S256.Idx)
  show A (((cfg0.win 3).blk t).view.emb y) = A y
  refine congrArg A (funext fun a => Fin.ext ?_)
  match a with
  | ⟨0, _⟩ => show win0_3.index t (0 : Fin 1) * 256 + 1 * (y 0).val = (y 0).val; omega

/-- The second layer's weight window stages its whole array at every point. -/
theorem blk_w2 (A : S256x128.Idx → EReal) (t : Fin cfg0.N) : ((cfg0.win 4).blk t).view.read (Elt Ideal) A = A := by
  obtain ⟨-, -, -, -, -, -, -, e0, e1, -⟩ := idx_facts t
  funext (y : S256x128.Idx)
  show A (((cfg0.win 4).blk t).view.emb y) = A y
  refine congrArg A (funext fun a => Fin.ext ?_)
  match a with
  | ⟨0, _⟩ => show win0_4.index t (0 : Fin 2) * 256 + 1 * (y 0).val = (y 0).val; omega
  | ⟨1, _⟩ => show win0_4.index t (1 : Fin 2) * 128 + 1 * (y 1).val = (y 1).val; omega

/-- The second layer's bias window stages its whole array at every point. -/
theorem blk_b2 (A : S128.Idx → EReal) (t : Fin cfg0.N) : ((cfg0.win 5).blk t).view.read (Elt Ideal) A = A := by
  obtain ⟨-, -, -, -, -, -, -, -, -, e0, -⟩ := idx_facts t
  funext (y : S128.Idx)
  show A (((cfg0.win 5).blk t).view.emb y) = A y
  refine congrArg A (funext fun a => Fin.ext ?_)
  match a with
  | ⟨0, _⟩ => show win0_5.index t (0 : Fin 1) * 128 + 1 * (y 0).val = (y 0).val; omega

/-- WHAT POINT `t` WRITES BACK is block `t` of `G` of the arrays as the grid finds them. -/
theorem flushed_eq (c : Dev nD) (t : Fin cfg0.N) :
    (dats m 0 c).flushed 6 t = ((cfg0.win 6).blk t).view.read (Elt Ideal)
      (G (Gen.V m c (Pipeline.arrRef spec0 0)) (Gen.V m c (Pipeline.arrRef spec0 1)) (Gen.V m c (Pipeline.arrRef spec0 2))
        (Gen.V m c (Pipeline.arrRef spec0 3)) (Gen.V m c (Pipeline.arrRef spec0 4)) (Gen.V m c (Pipeline.arrRef spec0 5))) := by
  rw [Value.flushed6]
  funext (j : S2000x128.Idx)
  obtain ⟨p, r, rfl⟩ : ∃ (p : Fin 2000) (r : Fin 128), j = ix2 p r := ⟨j 0, j 1, eq_ix2 j⟩
  show out0_6 (iblk m c 0 t) (iblk m c 1 t) (iblk m c 2 t) (iblk m c 3 t) (iblk m c 4 t) (iblk m c 5 t) (ix2 p r)
    = G (Gen.V m c (Pipeline.arrRef spec0 0)) (Gen.V m c (Pipeline.arrRef spec0 1)) (Gen.V m c (Pipeline.arrRef spec0 2))
        (Gen.V m c (Pipeline.arrRef spec0 3)) (Gen.V m c (Pipeline.arrRef spec0 4)) (Gen.V m c (Pipeline.arrRef spec0 5))
        (((cfg0.win 6).blk t).view.emb (ix2 p r))
  rw [emb_out t p r]
  refine (Body.out_apply (iblk m c 0 t) (iblk m c 1 t) (iblk m c 2 t) (iblk m c 3 t) (iblk m c 4 t) (iblk m c 5 t) p r).trans ?_
  exact Cert.Mlp.outAt_congr _ _ _ _ _ _ _ _ _ _ _ _ p (rowOf t p) r
    (fun k => blk_x (Gen.V m c (Pipeline.arrRef spec0 0)) t p k) (fun k => blk_a (Gen.V m c (Pipeline.arrRef spec0 1)) t p k)
    (blk_w1 (Gen.V m c (Pipeline.arrRef spec0 2)) t) (blk_b1 (Gen.V m c (Pipeline.arrRef spec0 3)) t)
    (blk_w2 (Gen.V m c (Pipeline.arrRef spec0 4)) t) (blk_b2 (Gen.V m c (Pipeline.arrRef spec0 5)) t)

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v29).slice (win0_6.rect t)).set ↔ _
  rw [View.set_slice_whole, Rect.mem_set_unit]
  exact Iff.rfl

/-- The 50 blocks of 2000 rows cover the result array: row `i` is in block `i / 2000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

/-- `G` of equal arrays. -/
theorem G_congr {x x' : FVec Ideal S100000x128 .f32} {a a' : FVec Ideal S100000x64 .f32} {w1 w1' : FVec Ideal S192x256 .f32}
    {b1 b1' : FVec Ideal S256 .f32} {w2 w2' : FVec Ideal S256x128 .f32} {b2 b2' : FVec Ideal S128 .f32}
    (hx : x = x') (ha : a = a') (hw1 : w1 = w1') (hb1 : b1 = b1') (hw2 : w2 = w2') (hb2 : b2 = b2') :
    G x a w1 b1 w2 b2 = G x' a' w1' b1' w2' b2' := by
  subst hx ha hw1 hb1 hw2 hb2; rfl

/-- THE RESULT ARRAY after the run, as a function of the arrays as launched: `G` of the features, the host chain's
    aggregate, the weights and the biases. -/
theorem final (c : Dev nD) :
    (dats m 0 c).arrAt 6 cfg0.N
      = G (m ((c : Thread nD τ).loc main_arg0))
          (HostAgg.aggK (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) :=
  ((dats m 0 c).arrAt_eq_of_cover 6 _ (fun t _ => flushed_eq m c t) cover).trans
    (G_congr (Gen.V_main_arg0 m c) (HostAgg.V_agg m c) (HostAgg.V_w1 m c) (Gen.V_main_arg3 m c) (HostAgg.V_w2 m c)
      (Gen.V_main_arg5 m c))

/-- THE KERNEL PROGRAM'S RUN, read: it terminates with the result array at `G` of the arrays as launched and the
    arguments unchanged. -/
theorem run : θ_run defs (onTc (τ := τ) (main (F := Ideal))) ⟨m, fun _ => 0, ρ⟩ fun r => ∀ c : Dev nD,
      r.2.mem ((c : Thread nD τ).loc main_v29)
        = G (m ((c : Thread nD τ).loc main_arg0))
            (HostAgg.aggK (m ((c : Thread nD τ).loc main_arg0)) (m ((c : Thread nD τ).loc main_arg1)))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.LibPairConcat.lean ====
/-
  Two arrays joined along an axis, read at an entry, for matrices: two blocks side by side (axis 1) and two blocks one
  above the other (axis 0). An entry whose coordinate on the joined axis lies below the first block's extent is the
  first block's entry at the same coordinates; an entry at or past it is the second block's, the first extent less.
  And the sum this splits: a sum over a + b places is the sum over the first a plus the sum over the last b.
  General in the extents and the element type.
-/
import Idealize.ShloMosaic.Lib.Pipeline.Value
import Idealize.ShloMosaic.Lib.ValueIdx

namespace Cert.PairConcat

open Idealize.ShloMosaic Idealize.ShloMosaic.ValueIdx

variable {α : Type}

/-- Two blocks side by side: a column of the first block. -/
theorem concat_cols_left {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (k : Fin a) (hk : k.val < c) :
    concatenate ⟨2, ![m, c]⟩ 1 [⟨⟨2, ![m, a]⟩, x₁⟩, ⟨⟨2, ![m, b]⟩, x₂⟩] h (ix2 p ⟨k.val, hk⟩) = x₁ (ix2 p k) := by
  refine concatenate_pair_apply_left (t := ⟨2, ![m, c]⟩) (1 : Fin 2) x₁ x₂ h _ rfl (ix2 p k) fun bx => ?_
  match bx with
  | ⟨0, _⟩ => rfl
  | ⟨1, _⟩ => rfl

/-- Two blocks side by side: a column of the second block. -/
theorem concat_cols_right {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (k : Fin b) (hk : a + k.val < c) :
    concatenate ⟨2, ![m, c]⟩ 1 [⟨⟨2, ![m, a]⟩, x₁⟩, ⟨⟨2, ![m, b]⟩, x₂⟩] h (ix2 p ⟨a + k.val, hk⟩) = x₂ (ix2 p k) := by
  refine concatenate_pair_apply_right (t := ⟨2, ![m, c]⟩) (1 : Fin 2) x₁ x₂ h _ rfl rfl (ix2 p k) (fun bx hb => ?_) ?_
  · match bx with
    | ⟨0, _⟩ => rfl
    | ⟨1, _⟩ => exact absurd rfl hb
  · show k.val + a = a + k.val
    omega

/-- Two blocks one above the other: a row of the first block. -/
theorem concat_rows_left {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (k : Fin a) (hk : k.val < c) (q : Fin n) :
    concatenate ⟨2, ![c, n]⟩ 0 [⟨⟨2, ![a, n]⟩, x₁⟩, ⟨⟨2, ![b, n]⟩, x₂⟩] h (ix2 ⟨k.val, hk⟩ q) = x₁ (ix2 k q) := by
  refine concatenate_pair_apply_left (t := ⟨2, ![c, n]⟩) (0 : Fin 2) x₁ x₂ h _ rfl (ix2 k q) fun bx => ?_
  match bx with
  | ⟨0, _⟩ => rfl
  | ⟨1, _⟩ => rfl

/-- Two blocks one above the other: a row of the second block. -/
theorem concat_rows_right {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (k : Fin b) (hk : a + k.val < c) (q : Fin n) :
    concatenate ⟨2, ![c, n]⟩ 0 [⟨⟨2, ![a, n]⟩, x₁⟩, ⟨⟨2, ![b, n]⟩, x₂⟩] h (ix2 ⟨a + k.val, hk⟩ q) = x₂ (ix2 k q) := by
  refine concatenate_pair_apply_right (t := ⟨2, ![c, n]⟩) (0 : Fin 2) x₁ x₂ h _ rfl rfl (ix2 k q) (fun bx hb => ?_) ?_
  · match bx with
    | ⟨0, _⟩ => exact absurd rfl hb
    | ⟨1, _⟩ => rfl
  · show k.val + a = a + k.val
    omega

/-- A sum over `a + b` places is the sum over the first `a` plus the sum over the last `b`. -/
theorem sum_split {M : Type*} [AddCommMonoid M] (a b c : ℕ) (hc : a + b = c) (f : Fin c → M) :
    ∑ k : Fin c, f k = ∑ k : Fin a, f ⟨k.val, by have := k.isLt; omega⟩ + ∑ k : Fin b, f ⟨a + k.val, by have := k.isLt; omega⟩ := by
  subst hc
  rw [Fin.sum_univ_add]
  rfl

end Cert.PairConcat
-- ==== Proof.RefSide.lean ====
/-
  The reference, read at an entry.

  After the aggregation the reference joins each node's 128 features and its 64 averaged neighbour features into one row
  of 192 numbers, multiplies by the first layer's weights `[192, 256]`, adds the bias, takes the maximum with zero,
  multiplies by the second layer's weights and adds its bias. A sum over the 192 joined places is the sum over the first
  128 (where the joined row is the node's features, meeting weight rows 0 … 127) plus the sum over the last 64 (where it is
  the averaged neighbour features, meeting weight rows 128 … 191) — additions of extended reals only regrouped, nothing
  distributed or cancelled. So entry `(p, r)` of the reference's result is the network's output `r` of node `p`
  (`Cert.Mlp.outAt` at height 100000) with the reference's own aggregate as the neighbour rows.
-/
import proofs.«164900_j84378927497574_2_alg».proof.Proof.Gen.ReferenceIdeal.Read
import proofs.«164900_j84378927497574_2_alg».proof.Proof.MlpSpec
import proofs.«164900_j84378927497574_2_alg».proof.Proof.LibPairConcat

noncomputable section

namespace Cert.ReferenceIdeal.RefValue

open Cert.ReferenceIdeal Cert.ReferenceIdeal.Read Idealize.ShloMosaic Idealize.ShloMosaic.ValueIdx

/-! ## The operand indices the generated read lemmas name, at an entry given by its coordinates -/

theorem lidx31 (p : Fin 100000) (j : Fin 256) (k : Fin 192) : lidx_main_v31 (ix2 p j) k = ix2 p k :=
  funext fun a => Fin.ext (match a with | ⟨0, _⟩ => rfl | ⟨1, _⟩ => rfl)
theorem ridx31 (p : Fin 100000) (j : Fin 256) (k : Fin 192) : ridx_main_v31 (ix2 p j) k = ix2 k j :=
  funext fun a => Fin.ext (match a with | ⟨0, _⟩ => rfl | ⟨1, _⟩ => rfl)
theorem idx3233 (p : Fin 100000) (j : Fin 256) : idx_main_v32 (idx_main_v33 (ix2 p j)) = ix1 j :=
  funext fun a => Fin.ext (match a with | ⟨0, _⟩ => rfl)
theorem lidx36 (p : Fin 100000) (r : Fin 128) (k : Fin 256) : lidx_main_v36 (ix2 p r) k = ix2 p k :=
  funext fun a => Fin.ext (match a with | ⟨0, _⟩ => rfl | ⟨1, _⟩ => rfl)
theorem ridx36 (p : Fin 100000) (r : Fin 128) (k : Fin 256) : ridx_main_v36 (ix2 p r) k = ix2 k r :=
  funext fun a => Fin.ext (match a with | ⟨0, _⟩ => rfl | ⟨1, _⟩ => rfl)
theorem idx3738 (p : Fin 100000) (r : Fin 128) : idx_main_v37 (idx_main_v38 (ix2 p r)) = ix1 r :=
  funext fun a => Fin.ext (match a with | ⟨0, _⟩ => rfl)

/-- Hidden unit `j` of node `p`, as the reference computes it: the sum over the 192 joined places split where the
    node's own features end. -/
theorem hidden_eq (x0 : (⟨S100000x128, .f32⟩ : BufTy).Contents (Elt Ideal)) (x1 : (⟨S2x1600000, .i32⟩ : BufTy).Contents (Elt Ideal))
    (x2 : (⟨S192x256, .f32⟩ : BufTy).Contents (Elt Ideal)) (x3 : (⟨S256, .f32⟩ : BufTy).Contents (Elt Ideal))
    (p : Fin 100000) (j : Fin 256) :
    val_main_v35 (F := Ideal) x0 x1 x2 x3 (ix2 p j)
      = Cert.Mlp.hiddenAt x0 (val_main_v29 (F := Ideal) x0 x1) x2 x3 p j := by
  rw [val_main_v35_apply, val_main_v34_apply, val_main_v31_apply, val_main_v33_apply, val_main_v32_apply,
    val_main_call0_v0_apply, val_main_call0_cst_apply]
  simp only [lidx31, ridx31, idx3233]
  unfold Cert.Mlp.hiddenAt
  refine congrArg₂ max (congrArg (· + x3 (ix1 j)) ?_) rfl
  rw [Cert.PairConcat.sum_split 128 64 192 rfl]
  unfold val_main_v30
  refine congrArg₂ (· + ·) (Finset.sum_congr rfl fun k _ => congrArg (· * _) ?_)
    (Finset.sum_congr rfl fun k _ => congrArg (· * _) ?_)
  · exact Cert.PairConcat.concat_cols_left x0 (val_main_v29 (F := Ideal) x0 x1) _ p k _
  · exact Cert.PairConcat.concat_cols_right x0 (val_main_v29 (F := Ideal) x0 x1) _ p k _

/-- THE REFERENCE'S RESULT, entry by entry: the network's output for each node, its neighbour rows the reference's own
    aggregate. -/
theorem result_eq (x0 : (⟨S100000x128, .f32⟩ : BufTy).Contents (Elt Ideal)) (x1 : (⟨S2x1600000, .i32⟩ : BufTy).Contents (Elt Ideal))
    (x2 : (⟨S192x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal)) :
    val_main_v39 (F := Ideal) x0 x1 x2 x3 x4 x5
      = fun i => Cert.Mlp.outAt x0 (val_main_v29 (F := Ideal) x0 x1) x2 x3 x4 x5 (i 0) (i 1) := by
  funext i
  obtain ⟨p, r, rfl⟩ : ∃ (p : Fin 100000) (r : Fin 128), i = ix2 p r := ⟨i 0, i 1, eq_ix2 i⟩
  rw [val_main_v39_apply, val_main_v36_apply, val_main_v38_apply, val_main_v37_apply]
  simp only [lidx36, ridx36, idx3738, hidden_eq]
  rfl

end Cert.ReferenceIdeal.RefValue

end
-- ==== Proof.LibRowGatherScatter.lean ====
/-
  A gather of rows and an accumulating scatter of rows, read at an entry.

  `x[rows]` for a matrix `x : [N, C]` and row numbers `rows : [R, 1]` lowers to a gather whose result
  `[R, C]` holds, at `(e, c)`, the entry `(ρ e, c)` of `x`, where `ρ e` is the row number `rows[e, 0]`
  read as a signed integer and clamped into `[0, N − 1]`: the column is kept, the row is looked up.

  `segment_sum(upd, rows)` for updates `upd : [R, C]` lowers to an accumulating scatter into `[N, C]`:
  update `(e, c)` lands on entry `(rows[e, 0], c)` when that row number, read signed and NOT clamped,
  lies in `[0, N)`, and is dropped otherwise. So entry `(v, k)` of the result is the operand's entry plus
  the sum, over the update rows `e` whose row number is `v`, of `upd (e, k)`.
-/
import Idealize.ShloMosaic.Lib.ValueIdx
import Idealize.ShloMosaic.PureOps.Ideal
import Idealize.ShloMosaic.PureOps.Ideal.Laws

noncomputable section

namespace RowOps

open Idealize.ShloMosaic Idealize.ShloMosaic.ValueIdx

/-- The entry `[e, 0]` of a column of `R` row numbers. -/
abbrev col0 {R : Nat} (e : Fin R) : (⟨2, ![R, 1]⟩ : Shape).Idx := ix2 e (⟨0, Nat.one_pos⟩ : Fin 1)

/-! ## Rows gathered -/

section Gather
variable {α : Type}

/-- The dimension numbers of `x[rows]`: operand `[N, C]`, start indices `[R, 1]`, result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of the operand that result row `e` reads: its row number read signed, clamped into `[0, N − 1]`. -/
def gatheredRow {N R w : Nat} (hN : 0 < N) (idx : IVec ⟨2, ![R, 1]⟩ w) (e : Fin R) : Fin N :=
  ⟨min (idx (col0 e)).toInt.toNat (N - 1), by omega⟩

/-- THE ROW GATHER READ AT `(e, c)`: entry `c` of the looked-up row. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c) = x (ix2 (gatheredRow hN idx e) c) := by
  unfold Host.gather
  congr 1
  have h0 : ((rowGatherDims N R C wf).operandIdx (ix2 e c) idx (0 : Fin 2)).val = (gatheredRow hN idx e).val := by
    show (rowGatherDims N R C wf).start (ix2 e c) idx (0 : Fin 2) + (rowGatherDims N R C wf).batchCoord (ix2 e c) (0 : Fin 2)
        + (rowGatherDims N R C wf).offCoord (ix2 e c) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = col0 e := by
      funext b; refine Fin.ext ?_
      match b with
      | ⟨0, _⟩ => rfl
      | ⟨1, _⟩ => rfl
    rw [hsi]
    rfl
  have h1 : ((rowGatherDims N R C wf).operandIdx (ix2 e c) idx (1 : Fin 2)).val = c.val := by
    show (rowGatherDims N R C wf).start (ix2 e c) idx (1 : Fin 2) + (rowGatherDims N R C wf).batchCoord (ix2 e c) (1 : Fin 2)
        + (rowGatherDims N R C wf).offCoord (ix2 e c) (1 : Fin 2) = _
    rw [GatherDims.batchCoord_eq_zero _ _ _ List.not_mem_nil, Nat.add_zero]
    have hn : (1 : Fin 2) ∉ (rowGatherDims N R C wf).startIndexMap := fun h =>
      absurd (List.mem_singleton.mp h) (by decide : ¬ (1 : Fin 2) = 0)
    have hk : (1 : Fin 2) ∈ (rowGatherDims N R C wf).sKept :=
      (GatherDims.mem_sKept _ _).mpr ⟨fun h => absurd (List.mem_singleton.mp h) (by decide : ¬ (1 : Fin 2) = 0),
        List.not_mem_nil⟩
    unfold GatherDims.start GatherDims.offCoord
    rw [dif_neg hn, dif_pos hk, Nat.zero_add]
    rfl
  funext a
  refine Fin.ext ?_
  match a with
  | ⟨0, _⟩ => exact h0
  | ⟨1, _⟩ => exact h1

end Gather

/-! ## Rows scattered and accumulated -/

section Scatter

/-- The dimension numbers of `segment_sum` over rows: operand `[N, C]`, scatter indices `[R, 1]`, updates `[R, C]`. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)
  (idx : IVec ⟨2, ![R, 1]⟩ w)

/-- On the row axis the window of update `(e, c)` starts at its row number, read signed. -/
theorem start_row (e : Fin R) (c : Fin C) :
    (rowScatterDims N R C wf).start (ix2 e c) idx (0 : Fin 2) = (idx (col0 e)).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = col0 e := by
    funext b; refine Fin.ext ?_
    match b with
    | ⟨0, _⟩ => rfl
    | ⟨1, _⟩ => rfl
  rw [hsi]

/-- On the column axis it starts at zero. -/
theorem start_col (e : Fin R) (c : Fin C) : (rowScatterDims N R C wf).start (ix2 e c) idx (1 : Fin 2) = 0 := by
  unfold ScatterDims.start
  rw [dif_neg (fun h => absurd (List.mem_singleton.mp h) (by decide : ¬ (1 : Fin 2) = 0))]

/-- The row axis is inserted: the window has no extent there. -/
theorem window_row (e : Fin R) (c : Fin C) : (rowScatterDims N R C wf).window (ix2 e c) (0 : Fin 2) = 0 := by
  unfold ScatterDims.window
  rw [dif_neg]
  intro h
  exact (List.mem_filter.mp h).2 |> fun h' => by simp at h'

/-- On the column axis the window coordinate is the update's column. -/
theorem window_col (e : Fin R) (c : Fin C) : (rowScatterDims N R C wf).window (ix2 e c) (1 : Fin 2) = c.val := by
  unfold ScatterDims.window
  rw [dif_pos (show (1 : Fin 2) ∈ (rowScatterDims N R C wf).sKept from
    List.mem_filter.mpr ⟨List.mem_finRange _, by simp⟩)]
  rfl

/-- WHERE UPDATE `(e, c)` LANDS: on `(v, k)` exactly when its row number is `v` and its column is `k`. -/
theorem resultIdx?_rows (e : Fin R) (c : Fin C) (v : Fin N) (k : Fin C) :
    (rowScatterDims N R C wf).resultIdx? (ix2 e c) idx = some (ix2 v k)
      ↔ (idx (col0 e)).toInt = (v.val : Int) ∧ c = k := by
  have hs0 := start_row wf idx e c
  have hs1 := start_col wf idx e c
  have hw0 := window_row wf e c
  have hw1 := window_col wf e c
  unfold ScatterDims.resultIdx?
  split
  · rename_i h
    rw [Option.some.injEq]
    constructor
    · intro hf
      have h0 := congrArg Fin.val (congrFun hf (0 : Fin 2))
      have h1 := congrArg Fin.val (congrFun hf (1 : Fin 2))
      have hp := (h (0 : Fin 2)).1
      simp only [hs0, hw0, hs1, hw1] at h0 h1 hp
      refine ⟨?_, Fin.ext ?_⟩
      · have : ((idx (col0 e)).toInt + ((0 : Nat) : Int)).toNat = v.val := h0
        omega
      · have : ((0 : Int) + (c.val : Int)).toNat = k.val := h1
        omega
    · rintro ⟨hv, rfl⟩
      funext a
      refine Fin.ext ?_
      match a with
      | ⟨0, _⟩ =>
        show ((rowScatterDims N R C wf).start (ix2 e c) idx (0 : Fin 2)
          + ((rowScatterDims N R C wf).window (ix2 e c) (0 : Fin 2) : Int)).toNat = v.val
        rw [hs0, hw0, hv]; simp
      | ⟨1, _⟩ =>
        show ((rowScatterDims N R C wf).start (ix2 e c) idx (1 : Fin 2)
          + ((rowScatterDims N R C wf).window (ix2 e c) (1 : Fin 2) : Int)).toNat = c.val
        rw [hs1, hw1]; simp
  · rename_i h
    constructor
    · intro hf; cases hf
    · rintro ⟨hv, rfl⟩
      refine (h fun a => ?_).elim
      match a with
      | ⟨0, _⟩ =>
        show 0 ≤ (rowScatterDims N R C wf).start (ix2 e c) idx (0 : Fin 2)
            + ((rowScatterDims N R C wf).window (ix2 e c) (0 : Fin 2) : Int)
          ∧ (rowScatterDims N R C wf).start (ix2 e c) idx (0 : Fin 2)
            + ((rowScatterDims N R C wf).window (ix2 e c) (0 : Fin 2) : Int) < (N : Int)
        rw [hs0, hw0, hv]
        have := v.isLt
        omega
      | ⟨1, _⟩ =>
        show 0 ≤ (rowScatterDims N R C wf).start (ix2 e c) idx (1 : Fin 2)
            + ((rowScatterDims N R C wf).window (ix2 e c) (1 : Fin 2) : Int)
          ∧ (rowScatterDims N R C wf).start (ix2 e c) idx (1 : Fin 2)
            + ((rowScatterDims N R C wf).window (ix2 e c) (1 : Fin 2) : Int) < (C : Int)
        rw [hs1, hw1]
        have := c.isLt
        omega

/-- The update rows whose row number is `v`. -/
def rowsOnto (v : Fin N) : Finset (Fin R) := Finset.univ.filter fun e => (idx (col0 e)).toInt = (v.val : Int)

/-- THE ROW SCATTER READ AT `(v, k)`, at the ideal instance: the operand's entry plus the sum, over the update
    rows whose row number is `v`, of their entry in column `k`. -/
theorem scatterAdd_rows_apply {φ : FTy} (x : FVec Ideal ⟨2, ![N, C]⟩ φ) (upd : FVec Ideal ⟨2, ![R, C]⟩ φ)
    (v : Fin N) (k : Fin C) :
    Host.scatterAdd (rowScatterDims N R C wf) x idx upd (ix2 v k)
      = x (ix2 v k) + ∑ e ∈ rowsOnto idx v, upd (ix2 e k) := by
  show Ideal.hostScatterAdd (rowScatterDims N R C wf) x idx upd (ix2 v k) = _
  unfold Ideal.hostScatterAdd rowsOnto
  congr 1
  rw [Finset.sum_filter, sum_idx2, Finset.sum_filter]
  refine Finset.sum_congr rfl fun e _ => ?_
  simp only [resultIdx?_rows wf idx e _ v k]
  by_cases hv : (idx (col0 e)).toInt = (v.val : Int)
  · simp only [hv, true_and, if_true]
    rw [Finset.sum_ite_eq' Finset.univ k fun c => upd (ix2 e c)]
    simp
  · simp only [hv, false_and, if_false]
    exact Finset.sum_const_zero

end Scatter

end RowOps

end
-- ==== Proof.LibVecScatter.lean ====
/-
  An accumulating scatter into a vector, read at an index.

  `segment_sum(upd, rows)` for updates `upd : [R]` (one number per update row) lowers to an accumulating scatter into a
  vector `[N]`: update `e` lands on entry `rows[e, 0]` when that row number, read as a signed integer and NOT clamped,
  lies in `[0, N)`, and is dropped otherwise. So entry `v` of the result is the operand's entry plus the sum, over the
  update rows whose row number is `v`, of `upd e` — the one-column counterpart of the scatter of rows `[R, C]` into
  `[N, C]`, over the same set of update rows. General in `N`, `R` and the index width.
-/
import proofs.«164900_j84378927497574_2_alg».proof.Proof.LibRowGatherScatter

noncomputable section

namespace RowOps

open Idealize.ShloMosaic Idealize.ShloMosaic.ValueIdx

section VecScatter

/-- The dimension numbers of `segment_sum` over numbers: operand `[N]`, scatter indices `[R, 1]`, updates `[R]`. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)
  (idx : IVec ⟨2, ![R, 1]⟩ w)

/-- The window of update `e` starts at its row number, read signed. -/
theorem vec_start (e : Fin R) :
    (vecScatterDims N R wf).start (ix1 e) idx (0 : Fin 1) = (idx (col0 e)).toInt := by
  unfold ScatterDims.start
  rw [dif_pos (show (0 : Fin 1) ∈ (vecScatterDims N R wf).scatterDimsToOperandDims from List.mem_singleton.mpr rfl)]
  have hsi : (vecScatterDims N R wf).siIdx (ix1 e)
      ⟨List.idxOf (0 : Fin 1) (vecScatterDims N R wf).scatterDimsToOperandDims,
        List.idxOf_lt_length_iff.2 (List.mem_singleton.mpr rfl)⟩ = col0 e := by
    funext b; refine Fin.ext ?_
    match b with
    | ⟨0, _⟩ => rfl
    | ⟨1, _⟩ => rfl
  rw [hsi]

/-- The one operand axis is inserted: the window has no extent there. -/
theorem vec_window (e : Fin R) : (vecScatterDims N R wf).window (ix1 e) (0 : Fin 1) = 0 := by
  unfold ScatterDims.window
  rw [dif_neg]
  intro h
  exact (List.mem_filter.mp h).2 |> fun h' => by simp at h'

/-- WHERE UPDATE `e` LANDS: on entry `v` exactly when its row number is `v`. -/
theorem resultIdx?_vec (e : Fin R) (v : Fin N) :
    (vecScatterDims N R wf).resultIdx? (ix1 e) idx = some (ix1 v) ↔ (idx (col0 e)).toInt = (v.val : Int) := by
  have hs0 := vec_start wf idx e
  have hw0 := vec_window wf e
  unfold ScatterDims.resultIdx?
  split
  · rename_i h
    rw [Option.some.injEq]
    constructor
    · intro hf
      have h0 := congrArg Fin.val (congrFun hf (0 : Fin 1))
      have hp := (h (0 : Fin 1)).1
      simp only [hs0, hw0] at h0 hp
      have : ((idx (col0 e)).toInt + ((0 : Nat) : Int)).toNat = v.val := h0
      omega
    · intro hv
      funext a
      refine Fin.ext ?_
      match a with
      | ⟨0, _⟩ =>
        show ((vecScatterDims N R wf).start (ix1 e) idx (0 : Fin 1)
          + ((vecScatterDims N R wf).window (ix1 e) (0 : Fin 1) : Int)).toNat = v.val
        rw [hs0, hw0, hv]; simp
  · rename_i h
    constructor
    · intro hf; cases hf
    · intro hv
      refine (h fun a => ?_).elim
      match a with
      | ⟨0, _⟩ =>
        show 0 ≤ (vecScatterDims N R wf).start (ix1 e) idx (0 : Fin 1)
            + ((vecScatterDims N R wf).window (ix1 e) (0 : Fin 1) : Int)
          ∧ (vecScatterDims N R wf).start (ix1 e) idx (0 : Fin 1)
            + ((vecScatterDims N R wf).window (ix1 e) (0 : Fin 1) : Int) < (N : Int)
        rw [hs0, hw0, hv]
        have := v.isLt
        omega

/-- A vector's index set is its one coordinate's range, so a sum over it is the sum over the coordinate. -/
theorem sum_vec_idx {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- THE SCATTER INTO A VECTOR READ AT `v`, at the ideal instance: the operand's entry plus the sum, over the update
    rows whose row number is `v`, of their number. -/
theorem scatterAdd_vec_apply {φ : FTy} (x : FVec Ideal ⟨1, ![N]⟩ φ) (upd : FVec Ideal ⟨1, ![R]⟩ φ) (v : Fin N) :
    Host.scatterAdd (vecScatterDims N R wf) x idx upd (ix1 v)
      = x (ix1 v) + ∑ e ∈ rowsOnto idx v, upd (ix1 e) := by
  show Ideal.hostScatterAdd (vecScatterDims N R wf) x idx upd (ix1 v) = _
  unfold Ideal.hostScatterAdd rowsOnto
  congr 1
  rw [Finset.sum_filter, sum_vec_idx, Finset.sum_filter]
  refine Finset.sum_congr rfl fun e _ => ?_
  simp only [resultIdx?_vec wf idx e v]

end VecScatter

end RowOps

end
-- ==== Proof.LibCountColumn.lean ====
/-
  A segment sum with a counting column, read column by column.

  To get a neighbour sum and a degree in one pass a program appends a constant column `o : [R, 1]` to its updates
  `U : [R, C]` and scatters the joined rows `[R, C + 1]` by row number into `[N, C + 1]`. Read at an entry, the joined
  scatter is two independent ones over the SAME update rows (those whose row number is the entry's row): on a column
  `k < C` it is the scatter of `U` alone into `[N, C]` (`scatter_joined_left`), and on the last column it is the
  scatter of the constant numbers, as a vector `[R]`, into a vector `[N]` (`scatter_joined_last`) — provided the
  operands agree at the entry. General in `N`, `R`, `C`; the dimension records are passed with the equation that they
  are the row (resp. vector) scatter's, which holds by `rfl` for a printed record. Also the row gather and the two
  scatters at an entry for a record given that way (`gather_rows_apply'`, `scatterAdd_rows_apply'`,
  `scatterAdd_vec_apply'`).
-/
import proofs.«164900_j84378927497574_2_alg».proof.Proof.LibVecScatter
import proofs.«164900_j84378927497574_2_alg».proof.Proof.LibPairConcat

noncomputable section

namespace RowOps

open Idealize.ShloMosaic Idealize.ShloMosaic.ValueIdx

/-- The row gather at `(e, c)` for a record that is the row gather's. -/
theorem gather_rows_apply' {α : Type} {N R C w : Nat} (hN : 0 < N)
    (d : GatherDims ⟨2, ![N, C]⟩ ⟨2, ![R, 1]⟩ ⟨2, ![R, C]⟩)
    (wf : GatherDims.WF ⟨2, ![N, C]⟩ ⟨2, ![R, 1]⟩ ⟨2, ![R, C]⟩ [1] [0] [] [0] [] 1 ![1, C])
    (hd : d = rowGatherDims N R C wf)
    (x : (⟨2, ![N, C]⟩ : Shape).Idx → α) (idx : IVec ⟨2, ![R, 1]⟩ w) (e : Fin R) (c : Fin C) :
    Host.gather d x idx (ix2 e c) = x (ix2 (gatheredRow hN idx e) c) := by
  subst hd; exact gather_rows_apply hN wf x idx e c

/-- The row scatter at `(v, k)` for a record that is the row scatter's. -/
theorem scatterAdd_rows_apply' {N R C w : Nat} {φ : FTy}
    (d : ScatterDims ⟨2, ![N, C]⟩ ⟨2, ![R, 1]⟩ ⟨2, ![R, C]⟩)
    (wf : ScatterDims.WF ⟨2, ![N, C]⟩ ⟨2, ![R, 1]⟩ ⟨2, ![R, C]⟩ [1] [0] [0] 1) (hd : d = rowScatterDims N R C wf)
    (idx : IVec ⟨2, ![R, 1]⟩ w) (x : FVec Ideal ⟨2, ![N, C]⟩ φ) (upd : FVec Ideal ⟨2, ![R, C]⟩ φ) (v : Fin N) (k : Fin C) :
    Host.scatterAdd d x idx upd (ix2 v k) = x (ix2 v k) + ∑ e ∈ rowsOnto idx v, upd (ix2 e k) := by
  subst hd; exact scatterAdd_rows_apply wf idx x upd v k

/-- The scatter into a vector at `v` for a record that is the vector scatter's. -/
theorem scatterAdd_vec_apply' {N R w : Nat} {φ : FTy}
    (d : ScatterDims ⟨1, ![N]⟩ ⟨2, ![R, 1]⟩ ⟨1, ![R]⟩)
    (wf : ScatterDims.WF ⟨1, ![N]⟩ ⟨2, ![R, 1]⟩ ⟨1, ![R]⟩ [] [0] [0] 1) (hd : d = vecScatterDims N R wf)
    (idx : IVec ⟨2, ![R, 1]⟩ w) (x : FVec Ideal ⟨1, ![N]⟩ φ) (upd : FVec Ideal ⟨1, ![R]⟩ φ) (v : Fin N) :
    Host.scatterAdd d x idx upd (ix1 v) = x (ix1 v) + ∑ e ∈ rowsOnto idx v, upd (ix1 e) := by
  subst hd; exact scatterAdd_vec_apply wf idx x upd v

section Joined

variable {N R C C1 w : Nat} {φ : FTy}
  (d1 : ScatterDims ⟨2, ![N, C1]⟩ ⟨2, ![R, 1]⟩ ⟨2, ![R, C1]⟩)
  (wf1 : ScatterDims.WF ⟨2, ![N, C1]⟩ ⟨2, ![R, 1]⟩ ⟨2, ![R, C1]⟩ [1] [0] [0] 1) (hd1 : d1 = rowScatterDims N R C1 wf1)
  (idx : IVec ⟨2, ![R, 1]⟩ w) (z1 : FVec Ideal ⟨2, ![N, C1]⟩ φ)
  (U : FVec Ideal ⟨2, ![R, C]⟩ φ) (o : FVec Ideal ⟨2, ![R, 1]⟩ φ)
  (hcat : Shape.Concatenates [(⟨2, ![R, C]⟩ : Shape), ⟨2, ![R, 1]⟩] ⟨2, ![R, C1]⟩ 1)

include wf1 hd1

/-- ON A FEATURE COLUMN the joined scatter is the scatter of the features alone. -/
theorem scatter_joined_left
    (d : ScatterDims ⟨2, ![N, C]⟩ ⟨2, ![R, 1]⟩ ⟨2, ![R, C]⟩)
    (wf : ScatterDims.WF ⟨2, ![N, C]⟩ ⟨2, ![R, 1]⟩ ⟨2, ![R, C]⟩ [1] [0] [0] 1) (hd : d = rowScatterDims N R C wf)
    (z : FVec Ideal ⟨2, ![N, C]⟩ φ) (v : Fin N) (k : Fin C) (hk : k.val < C1)
    (hz : z1 (ix2 v ⟨k.val, hk⟩) = z (ix2 v k)) :
    Host.scatterAdd d1 z1 idx (concatenate ⟨2, ![R, C1]⟩ 1 [⟨⟨2, ![R, C]⟩, U⟩, ⟨⟨2, ![R, 1]⟩, o⟩] hcat) (ix2 v ⟨k.val, hk⟩)
      = Host.scatterAdd d z idx U (ix2 v k) := by
  rw [scatterAdd_rows_apply' d1 wf1 hd1, scatterAdd_rows_apply' d wf hd, hz]
  exact congrArg (z (ix2 v k) + ·) (Finset.sum_congr rfl fun e _ => Cert.PairConcat.concat_cols_left U o hcat e k hk)

/-- ON THE COUNTING COLUMN the joined scatter is the scatter of the constant numbers into a vector. -/
theorem scatter_joined_last
    (dN : ScatterDims ⟨1, ![N]⟩ ⟨2, ![R, 1]⟩ ⟨1, ![R]⟩)
    (wfN : ScatterDims.WF ⟨1, ![N]⟩ ⟨2, ![R, 1]⟩ ⟨1, ![R]⟩ [] [0] [0] 1) (hdN : dN = vecScatterDims N R wfN)
    (zN : FVec Ideal ⟨1, ![N]⟩ φ) (ov : FVec Ideal ⟨1, ![R]⟩ φ) (v : Fin N) (hC : C < C1)
    (hz : z1 (ix2 v ⟨C, hC⟩) = zN (ix1 v)) (ho : ∀ e : Fin R, o (ix2 e (0 : Fin 1)) = ov (ix1 e)) :
    Host.scatterAdd d1 z1 idx (concatenate ⟨2, ![R, C1]⟩ 1 [⟨⟨2, ![R, C]⟩, U⟩, ⟨⟨2, ![R, 1]⟩, o⟩] hcat) (ix2 v ⟨C, hC⟩)
      = Host.scatterAdd dN zN idx ov (ix1 v) := by
  rw [scatterAdd_rows_apply' d1 wf1 hd1, scatterAdd_vec_apply' dN wfN hdN, hz]
  refine congrArg (zN (ix1 v) + ·) (Finset.sum_congr rfl fun e _ => ?_)
  exact (Cert.PairConcat.concat_cols_right U o hcat e (0 : Fin 1) hC).trans (ho e)

end Joined

end RowOps

end
-- ==== Proof.AggBridge.lean ====
/-
  The two programs compute the same aggregate.

  The reference scatter-adds the looked-up source features `[3200000, 64]` onto the target nodes and, separately, a vector of
  ones onto the same targets for the degree; the kernel program scatters both at once as 65 columns. The target and source
  row numbers are built by the same operations in both programs, and the looked-up features differ only by a change of
  float format, the identity on the extended reals. Column by column the 65-column scatter is the reference's two
  (`RowOps.scatter_joined_left` / `_last`: the same update rows land on a node either way), so at every entry both
  aggregates are the same quotient: summed source features over the count floored at one.
-/
import proofs.«164900_j84378927497574_2_alg».proof.Proof.AggDef
import proofs.«164900_j84378927497574_2_alg».proof.Proof.Gen.ReferenceIdeal.Read
import proofs.«164900_j84378927497574_2_alg».proof.Proof.LibCountColumn
import Idealize.ShloMosaic.Lib.ValueLayout
import Idealize.ShloMosaic.Lib.IdealHost

noncomputable section

namespace Cert.AggBridge

open Idealize.ShloMosaic Idealize.ShloMosaic.ValueIdx RowOps
open Cert.KernelIdeal.HostAgg

/-- The target row numbers are the same column in both programs. -/
theorem dst_eq (x1 : IVec Cert.KernelIdeal.S2x1600000 32) :
    dstCol x1 = Cert.ReferenceIdeal.Read.val_main_v19 (F := Ideal) x1 := rfl

/-- The reference builds that column a second time for the degree. -/
theorem dst_eq' (x1 : IVec Cert.KernelIdeal.S2x1600000 32) :
    dstCol x1 = Cert.ReferenceIdeal.Read.val_main_v23 (F := Ideal) x1 := rfl

/-- The source row numbers are the same column in both programs. -/
theorem src_eq (x1 : IVec Cert.KernelIdeal.S2x1600000 32) :
    srcCol x1 = Cert.ReferenceIdeal.Read.val_main_v16 (F := Ideal) x1 := rfl

/-- The looked-up source features are the same array: the kernel program's narrowing and widening are the identity. -/
theorem gathered_eq (x0 : FVec Ideal Cert.KernelIdeal.S100000x128 .f32)
    (x1 : IVec Cert.KernelIdeal.S2x1600000 32) :
    gathered x0 x1 = Cert.ReferenceIdeal.Read.val_main_v17 (F := Ideal) x0 x1 := by
  funext i
  obtain ⟨e, k, rfl⟩ : ∃ (e : Fin 3200000) (k : Fin 64), i = ix2 e k := ⟨i 0, i 1, eq_ix2 i⟩
  unfold gathered Cert.ReferenceIdeal.Read.val_main_v17 Cert.ReferenceIdeal.Read.val_main_v0
  rw [← src_eq]
  show Host.gather Cert.KernelIdeal.gather_S100000x64_S3200000x1_S3200000x64_1_0_n_n_0_1_164
      (truncf (F := Ideal) .bf16 (extractStridedSlice Cert.KernelIdeal.S100000x64 ![0, 0] x0
        Cert.KernelIdeal.Facts₀.slices_S100000x128_S100000x64_0_0) Cert.KernelIdeal.Facts₀.bitsLt_bf16_f32) (srcCol x1) (ix2 e k) = _
  refine (gather_rows_apply' (by decide) Cert.KernelIdeal.gather_S100000x64_S3200000x1_S3200000x64_1_0_n_n_0_1_164
    Cert.KernelIdeal.Facts₀.gather_S100000x64_S3200000x1_S3200000x64_1_0_n_n_0_1_164_wf rfl _ (srcCol x1) e k).trans ?_
  show extractStridedSlice Cert.KernelIdeal.S100000x64 ![0, 0] x0
      Cert.KernelIdeal.Facts₀.slices_S100000x128_S100000x64_0_0 (ix2 (gatheredRow (by decide) (srcCol x1) e) k) = _
  exact (gather_rows_apply' (by decide) Cert.ReferenceIdeal.gather_S100000x64_S3200000x1_S3200000x64_1_0_n_n_0_1_164
    Cert.ReferenceIdeal.Facts₀.gather_S100000x64_S3200000x1_S3200000x64_1_0_n_n_0_1_164_wf rfl _ (srcCol x1) e k).symm

/-- The summed source features: a feature column of the 65-column scatter is the reference's 64-column scatter. -/
theorem num_eq (x0 : FVec Ideal Cert.KernelIdeal.S100000x128 .f32)
    (x1 : IVec Cert.KernelIdeal.S2x1600000 32) (v : Fin 100000) (k : Fin 64) :
    extractStridedSlice Cert.KernelIdeal.S100000x64 ![0, 0] (scat x0 x1) Cert.KernelIdeal.Facts₀.slices_S100000x65_S100000x64_0_0 (ix2 v k)
      = Cert.ReferenceIdeal.Read.val_main_v20 (F := Ideal) x0 x1 (ix2 v k) := by
  refine (slice2_axis1_apply 0 (scat x0 x1) _ v k (⟨k.val, by have := k.isLt; omega⟩ : Fin 65) (Nat.zero_add _).symm).trans ?_
  unfold scat Cert.ReferenceIdeal.Read.val_main_v20
  rw [← dst_eq, ← gathered_eq]
  exact scatter_joined_left Cert.KernelIdeal.scatter_S100000x65_S3200000x1_S3200000x65_1_0_0_1
    Cert.KernelIdeal.Facts₀.scatter_S100000x65_S3200000x1_S3200000x65_1_0_0_1_wf rfl (dstCol x1) zeros65 (gathered x0 x1) onesCol _
    Cert.ReferenceIdeal.scatter_S100000x64_S3200000x1_S3200000x64_1_0_0_1
    Cert.ReferenceIdeal.Facts₀.scatter_S100000x64_S3200000x1_S3200000x64_1_0_0_1_wf rfl
    (Cert.ReferenceIdeal.Read.val_main_v18 (F := Ideal)) v k _ rfl

/-- The count of edges onto a node: the last column of the 65-column scatter is the reference's scatter of ones. -/
theorem cnt_eq (x0 : FVec Ideal Cert.KernelIdeal.S100000x128 .f32)
    (x1 : IVec Cert.KernelIdeal.S2x1600000 32) (v : Fin 100000) :
    extractStridedSlice Cert.KernelIdeal.S100000x1 ![0, 64] (scat x0 x1) Cert.KernelIdeal.Facts₀.slices_S100000x65_S100000x1_0_64 (ix2 v (0 : Fin 1))
      = Cert.ReferenceIdeal.Read.val_main_v24 (F := Ideal) x1 (ix1 v) := by
  refine (slice2_axis1_apply 64 (scat x0 x1) _ v (0 : Fin 1) (⟨64, by omega⟩ : Fin 65) rfl).trans ?_
  unfold scat Cert.ReferenceIdeal.Read.val_main_v24
  rw [← dst_eq']
  exact scatter_joined_last Cert.KernelIdeal.scatter_S100000x65_S3200000x1_S3200000x65_1_0_0_1
    Cert.KernelIdeal.Facts₀.scatter_S100000x65_S3200000x1_S3200000x65_1_0_0_1_wf rfl (dstCol x1) zeros65 (gathered x0 x1) onesCol _
    Cert.ReferenceIdeal.scatter_S100000_S3200000x1_S3200000_n_0_0_1
    Cert.ReferenceIdeal.Facts₀.scatter_S100000_S3200000x1_S3200000_n_0_0_1_wf rfl
    (Cert.ReferenceIdeal.Read.val_main_v22 (F := Ideal)) (Cert.ReferenceIdeal.Read.val_main_v21 (F := Ideal)) v _ rfl (fun _ => rfl)

/-- The kernel program's quotient at an entry, whatever the 65-column array: the feature column over the count column
    floored at one. -/
theorem quot_apply (S : FVec Ideal Cert.KernelIdeal.S100000x65 .f32) (v : Fin 100000) (k : Fin 64) :
    Host.divf (F := Ideal)
      (extractStridedSlice Cert.KernelIdeal.S100000x64 ![0, 0] S Cert.KernelIdeal.Facts₀.slices_S100000x65_S100000x64_0_0)
      (broadcastInDim Cert.KernelIdeal.S100000x64 ![0, 1] Cert.KernelIdeal.Facts₀.bcast_S100000x1_S100000x64_0_1
        (maximumf (F := Ideal)
          (extractStridedSlice Cert.KernelIdeal.S100000x1 ![0, 64] S Cert.KernelIdeal.Facts₀.slices_S100000x65_S100000x1_0_64)
          (broadcastInDim Cert.KernelIdeal.S100000x1 ![] Cert.KernelIdeal.Facts₀.bcast_S_S100000x1
            (constant (F := Ideal) Cert.KernelIdeal.S_ .f32 0x3F800000#32)))) (ix2 v k)
    = Ideal.div
        (extractStridedSlice Cert.KernelIdeal.S100000x64 ![0, 0] S Cert.KernelIdeal.Facts₀.slices_S100000x65_S100000x64_0_0 (ix2 v k))
        (max (extractStridedSlice Cert.KernelIdeal.S100000x1 ![0, 64] S Cert.KernelIdeal.Facts₀.slices_S100000x65_S100000x1_0_64
            (ix2 v (0 : Fin 1)))
          (Ideal.ofBits .f32 0x3F800000#32)) := by
  refine (hostDivf_apply _ _ _).trans (congrArg (Ideal.div _) ?_)
  refine (broadcastInDim_apply _ _ _ (ix2 v k) (ix2 v (0 : Fin 1)) fun ax => match ax with
    | ⟨0, _⟩ => by show v.val = if (100000 : ℕ) = 1 then 0 else v.val; rw [if_neg (by decide)]
    | ⟨1, _⟩ => by show 0 = if (1 : ℕ) = 1 then 0 else k.val; rw [if_pos rfl]).trans ?_
  rfl

/-- The reference's quotient at an entry: its summed features over its count floored at one. -/
theorem ref_quot (x0 : FVec Ideal Cert.KernelIdeal.S100000x128 .f32) (x1 : IVec Cert.KernelIdeal.S2x1600000 32)
    (v : Fin 100000) (k : Fin 64) :
    Cert.ReferenceIdeal.Read.val_main_v29 (F := Ideal) x0 x1 (ix2 v k)
      = Ideal.div (Cert.ReferenceIdeal.Read.val_main_v20 (F := Ideal) x0 x1 (ix2 v k))
          (max (Cert.ReferenceIdeal.Read.val_main_v24 (F := Ideal) x1 (ix1 v)) (Ideal.ofBits .f32 0x3F800000#32)) := by
  have hi : Cert.ReferenceIdeal.Read.idx_main_v27 (Cert.ReferenceIdeal.Read.idx_main_v28 (ix2 v k)) = ix1 v :=
    funext fun a => Fin.ext (match a with | ⟨0, _⟩ => rfl)
  rw [Cert.ReferenceIdeal.Read.val_main_v29_apply, Cert.ReferenceIdeal.Read.val_main_v28_apply,
    Cert.ReferenceIdeal.Read.val_main_v27_apply, Cert.ReferenceIdeal.Read.val_main_v26_apply,
    Cert.ReferenceIdeal.Read.val_main_v25_apply, Cert.ReferenceIdeal.Read.val_main_cst_3_apply, hi,
    Ideal.hostDivf_def, Ideal.maximumf_def, Ideal.ofBits_def]

/-- THE AGGREGATES AGREE, entry by entry. -/
theorem agg_eq (x0 : FVec Ideal Cert.KernelIdeal.S100000x128 .f32) (x1 : IVec Cert.KernelIdeal.S2x1600000 32) :
    aggK x0 x1 = Cert.ReferenceIdeal.Read.val_main_v29 (F := Ideal) x0 x1 := by
  funext i
  obtain ⟨v, k, rfl⟩ : ∃ (v : Fin 100000) (k : Fin 64), i = ix2 v k := ⟨i 0, i 1, eq_ix2 i⟩
  rw [ref_quot x0 x1 v k, ← cnt_eq x0 x1 v, ← num_eq x0 x1 v k]
  unfold aggK degSpread
  exact quot_apply (scat x0 x1) v k

end Cert.AggBridge

end
-- ==== Proof.lean ====
/-
  The kernel program against its reference, over the extended reals.

  Both programs average, for every node, the first 64 features of its neighbours over the symmetrised edge list (summed
  source features over the number of edges onto the node, floored at one) and feed the node's 128 features and that
  average through a two-layer network. The reference scatters features and ones separately, joins features and average
  into rows of 192 numbers and multiplies by the whole first-layer weight array; the kernel program scatters features
  and a column of ones together, and on a grid of 50 blocks of 2000 nodes multiplies the features by weight rows 0 … 127
  and the average by weight rows 128 … 191, adding the two products. On the extended reals these agree entry by entry:
  the joined scatter is the two scatters column by column (AggBridge), a sum over 192 places is the sum over the first
  128 plus the sum over the last 64 (RefSide), a change of float format is the identity and a product into a zero
  accumulator is the plain sum (KernelBody), and the 50 blocks tile the result array (KernelValue). No step distributes or
  cancels, so the finiteness of the inputs is never used. The kernel program's idealization rewrote nothing, so the
  preservation claim is trivial; the three frames are the two generated frame certificates and the reference's run.
-/
import proofs.«164900_j84378927497574_2_alg».proof.Defs
import proofs.«164900_j84378927497574_2_alg».proof.Proof.Gen.Kernel
import proofs.«164900_j84378927497574_2_alg».proof.Proof.Gen.Kernel.Skeleton
import proofs.«164900_j84378927497574_2_alg».proof.Proof.Gen.Kernel.Launch
import proofs.«164900_j84378927497574_2_alg».proof.Proof.Gen.Kernel.Points
import proofs.«164900_j84378927497574_2_alg».proof.Proof.Gen.Kernel.Frame
import proofs.«164900_j84378927497574_2_alg».proof.Proof.Gen.KernelIdeal
import proofs.«164900_j84378927497574_2_alg».proof.Proof.Gen.KernelIdeal.Skeleton
import proofs.«164900_j84378927497574_2_alg».proof.Proof.Gen.KernelIdeal.Launch
import proofs.«164900_j84378927497574_2_alg».proof.Proof.Gen.KernelIdeal.Points
import proofs.«164900_j84378927497574_2_alg».proof.Proof.Gen.KernelIdeal.Frame
import proofs.«164900_j84378927497574_2_alg».proof.Proof.Gen.ReferenceIdeal
import proofs.«164900_j84378927497574_2_alg».proof.Proof.Gen.Pre_finite_inputs
import proofs.«164900_j84378927497574_2_alg».proof.Proof.Gen.KernelIdeal.Value
import proofs.«164900_j84378927497574_2_alg».proof.Proof.Gen.ReferenceIdeal.Run
import proofs.«164900_j84378927497574_2_alg».proof.Proof.Gen.ReferenceIdeal.Read
import proofs.«164900_j84378927497574_2_alg».proof.Proof.KernelValue
import proofs.«164900_j84378927497574_2_alg».proof.Proof.RefSide
import proofs.«164900_j84378927497574_2_alg».proof.Proof.AggBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with every node's network output computed from its own
    feature row and its aggregate row; the two aggregates are the same array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.result_eq,
    (hagree c).1, (hagree c).2.1, (hagree c).2.2.1, (hagree c).2.2.2.1, (hagree c).2.2.2.2.1, (hagree c).2.2.2.2.2,
    ← Cert.AggBridge.agg_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
